-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x16x16 : Shape := ⟨4, ![64, 512, 16, 16]⟩
abbrev S_ : Shape := ⟨0, ![]⟩

class Facts : Prop where
  bcast_S_S64x512x16x16 : S_.BroadcastsInDim S64x512x16x16 (![] : Fin 0 → Fin S64x512x16x16.rank)
  reducesTo_S64x512x16x16_S_d0_1_2_3 : S64x512x16x16.ReducesTo [0, 1, 2, 3] S_
  h_S_ : 0 < S_.numel

variable [Facts]

def fn {F : FTy → Type} [FloatOps F] (main_arg0 : FVec F S64x512x16x16 .f32) : IVec S_ 1 :=
  let main_v0 : FVec F S64x512x16x16 .f32 := Host.absf main_arg0
  let main_cst : FVec F S_ .f32 := constant S_ .f32 0x7F800000#32
  let main_v1 : FVec F S64x512x16x16 .f32 := broadcastInDim S64x512x16x16 ![] bcast_S_S64x512x16x16 main_cst
  let main_v2 : IVec S64x512x16x16 1 := cmpf .olt main_v0 main_v1
  let main_c : IVec S_ 1 := constantI S_ 1 1#1
  let main_v3 : IVec S_ 1 := (fun x v => Host.reduce IntOp.andi x v reducesTo_S64x512x16x16_S_d0_1_2_3 h_S_) main_v2 main_c
  main_v3
-- ==== Kernel.lean ====
abbrev S64x512x16x16 : Shape := ⟨4, ![64, 512, 16, 16]⟩
abbrev S64x512x256 : Shape := ⟨3, ![64, 512, 256]⟩
abbrev S64x512x512 : Shape := ⟨3, ![64, 512, 512]⟩
abbrev S4x512x256 : Shape := ⟨3, ![4, 512, 256]⟩
abbrev S4x512x512 : Shape := ⟨3, ![4, 512, 512]⟩
abbrev S4x512 : Shape := ⟨2, ![4, 512]⟩
abbrev S4x512x1 : Shape := ⟨3, ![4, 512, 1]⟩

abbrev nBuf : Space → Nat
  | .hbm => 3
  | .vmem => 4
  | .smem => 0
  | _ => 0

abbrev bufTy : (tb : Table) → Fin (tcTables nBuf tb) → BufTy
  | .hbm, ⟨0, _⟩ => ⟨S64x512x16x16, .f32⟩
  | .hbm, ⟨1, _⟩ => ⟨S64x512x256, .f32⟩
  | .hbm, ⟨2, _⟩ => ⟨S64x512x512, .f32⟩
  | .local _ .vmem, ⟨0, _⟩ => ⟨S4x512x256, .f32⟩
  | .local _ .vmem, ⟨1, _⟩ => ⟨S4x512x256, .f32⟩
  | .local _ .vmem, ⟨2, _⟩ => ⟨S4x512x512, .f32⟩
  | .local _ .vmem, ⟨3, _⟩ => ⟨S4x512x512, .f32⟩
  | _, _ => ⟨S64x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x512x16x16_S64x512x256 : S64x512x16x16.ShapeCasts S64x512x256
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  reduces_S4x512x256_S4x512 : S4x512x256.Reduces [2] S4x512
  shapeCasts_S4x512_S4x512x1 : S4x512.ShapeCasts S4x512x1
  broadcasts_S4x512x1_S4x512x256 : S4x512x1.Broadcasts S4x512x256
  bitsLt_bf16_f32 : FTy.bits .bf16 < FTy.bits .f32
  inb_S4x512x512_S4x512x512_0_0_0 : ∀ a, (![0, 0, 0] : Fin 3 → Nat) a + S4x512x512.size a ≤ S4x512x512.size a
  h_S4x512x512 : 0 < S4x512x512.numel
  dot_S4x512x256_S4x512x256_S4x512x512_2_2_1_1_0_0_wf : DotDims.WF S4x512x256 S4x512x256 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S64x512x256.size a
  hwx0_0 : ∀ i : grid0.Coords, EltTy.bits .f32 = 32 ∨ (Rect.block (s := S64x512x256) S4x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S64x512x512.size a
  hwx0_1 : ∀ i : grid0.Coords, EltTy.bits .f32 = 32 ∨ (Rect.block (s := S64x512x512) S4x512x512.size (cc0_transform_1 i) (hinb0_1 i)).WholeWords (EltTy.packing .f32)

variable [Facts₀]

def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf

abbrev win0_0 : Pipeline.Window sig grid0 :=
  Pipeline.Window.ofSpec (Memref.whole main_v0) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x16x16 : Shape := ⟨4, ![64, 512, 16, 16]⟩
abbrev S64x512x256 : Shape := ⟨3, ![64, 512, 256]⟩
abbrev S256x256 : Shape := ⟨2, ![256, 256]⟩
abbrev S_ : Shape := ⟨0, ![]⟩
abbrev S64x512x512 : Shape := ⟨3, ![64, 512, 512]⟩

abbrev nBuf : Space → Nat
  | .hbm => 22
  | .vmem => 0
  | .smem => 0
  | _ => 0

abbrev bufTy : (tb : Table) → Fin (tcTables nBuf tb) → BufTy
  | .hbm, ⟨0, _⟩ => ⟨S64x512x16x16, .f32⟩
  | .hbm, ⟨1, _⟩ => ⟨S64x512x256, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S64x512x256, .f32⟩
  | .hbm, ⟨21, _⟩ => ⟨S64x512x512, .f32⟩
  | _, _ => ⟨S64x512x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  shapeCasts_S64x512x16x16_S64x512x256 : S64x512x16x16.ShapeCasts S64x512x256
  bcast_S_S256x256 : S_.BroadcastsInDim S256x256 (![] : Fin 0 → Fin S256x256.rank)
  dot_S64x512x256_S256x256_S64x512x256_2_0_01_1_n_n_wf : DotDims.WF S64x512x256 S256x256 S64x512x256 [2] [0] [0, 1] [1] [] []
  dot_S64x512x256_S64x512x256_S64x512x512_2_2_1_1_0_0_wf : DotDims.WF S64x512x256 S64x512x256 S64x512x512 [2] [2] [1] [1] [0] [0]

variable [Facts₀]

def dot_S64x512x256_S256x256_S64x512x256_2_0_01_1_n_n : DotDims S64x512x256 S256x256 S64x512x256 where
  lhsContracting := [2]
  rhsContracting := [0]
  lhsNonContracting := [0, 1]
  rhsNonContracting := [1]
  lhsBatch := []
  rhsBatch := []
  wf := dot_S64x512x256_S256x256_S64x512x256_2_0_01_1_n_n_wf
def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf

class Facts : Prop extends Facts₀ where

variable [Facts]
-- ==== Proof.Consts.lean ====
/-
  The two scale factors of covariance pooling over 256 positions, as extended reals. The pattern 0x3B800000 is
  2⁻⁸ = 1/256, the reciprocal of the number of positions; the pattern 0x3D800000 is 2⁻⁴ = 1/16, its square root. Both are
  exact binary fractions, so each pattern denotes the rational itself. The pattern 0x7F800000 is +∞.
-/
import Idealize.ShloMosaic.PureOps.Ideal

noncomputable section

namespace Cert.CovPool

open Idealize.ShloMosaic

/-- The reciprocal of the number of positions: 1/256. -/
theorem ofBits_inv256 : Ideal.ofBits .f32 0x3B800000#32 = ((1 / 256 : ℝ) : EReal) := by
  simp [Ideal.ofBits, Ideal.ieee, -EReal.coe_mul]; norm_num

/-- The pattern of +∞, against which the precondition compares every entry's absolute value. -/
theorem ofBits_top : Ideal.ofBits .f32 0x7F800000#32 = (⊤ : EReal) := by
  simp [Ideal.ofBits, Ideal.ieee]

/-- Its square root: 1/16. -/
theorem ofBits_inv16 : Ideal.ofBits .f32 0x3D800000#32 = ((1 / 16 : ℝ) : EReal) := by
  simp [Ideal.ofBits, Ideal.ieee, -EReal.coe_mul]; norm_num

end Cert.CovPool

end
-- ==== Proof.Finite.lean ====
/-
  What the precondition gives. The precondition compares the absolute value of every entry of the argument with +∞ and
  takes the conjunction of all the answers; it holds when the conjunction is 1. On the extended reals |a| is
  max a (−a), which is +∞ exactly when a is +∞ or −∞. So under the precondition every entry of the argument is a real.
-/
import proofs.«158008_j5609227288680_2_alg».proof.Pre_finite_inputs
import proofs.«158008_j5609227288680_2_alg».proof.Proof.Consts
import Idealize.ShloMosaic.Lib.ReduceAll
import Idealize.ShloMosaic.Lib.ValueIdx
import Idealize.ShloMosaic.PureOps.Ideal

noncomputable section

namespace Cert.CovPool

open Idealize.ShloMosaic Cert.Pre_finite_inputs

/-- A rank-0 array has one index. -/
instance subsingleton_scalar_idx : Subsingleton S_.Idx := ⟨fun a b => funext fun d => d.elim0⟩

/-- An extended real whose absolute value is below +∞ is a real. -/
theorem real_of_abs_lt_top (a : EReal) (h : Ideal.cmp .olt (max a (-a)) ⊤ = 1#1) : ∃ r : ℝ, a = (r : EReal) := by
  have hlt : max a (-a) < ⊤ := by
    by_contra hn
    simp [Ideal.cmp, hn] at h
  induction a using EReal.rec with
  | bot => simp at hlt
  | coe r => exact ⟨r, rfl⟩
  | top => simp at hlt

/-- Under the precondition every entry of the argument is a real. -/
theorem real_of_pre [Cert.Pre_finite_inputs.Facts] (x : FVec Ideal S64x512x16x16 .f32)
    (h : Cert.Pre_finite_inputs.fn (F := Ideal) x = fun _ => 1#1) (j : S64x512x16x16.Idx) :
    ∃ r : ℝ, x j = (r : EReal) := by
  have h0 := congrFun h ValueIdx.ix0
  dsimp only [Cert.Pre_finite_inputs.fn] at h0
  have hj := Host.reduce_andi_all _ _ _ _ _ h0 j
  have hj' : Ideal.cmp .olt (max (x j) (-(x j))) (Ideal.ofBits .f32 0x7F800000#32) = 1#1 := hj
  rw [ofBits_top] at hj'
  exact real_of_abs_lt_top (x j) hj'

end Cert.CovPool

end
-- ==== Proof.CovLaw.lean ====
/-
  The law behind covariance pooling. For two rows a, b of n numbers, a scale c with c·n = 1 and a scale s with s·s = c:

    the Gram sum of the centred, scaled rows      Σₘ ((aₘ − (Σ a)·c)·s) · ((bₘ − (Σ b)·c)·s)
    equals the row a taken through the matrix      Σⱼ (Σₘ aₘ · (c·δₘⱼ − c·c·1)) · bⱼ
    c·δ − c·c·1 and then against the row b.

  Both are c·Σ aₘbₘ − c·c·(Σ a)(Σ b): on the left the two cross terms and the constant term collapse to one because
  c·n = 1; on the right the inner sum is c·aⱼ − c·c·Σ a. The identity uses distributivity and cancellation, so on the
  extended reals it is stated for rows whose entries are reals.
-/
import Idealize.ShloMosaic.PureOps.Ideal
import Mathlib.Algebra.BigOperators.Fin
import Mathlib.Tactic.Ring
import Mathlib.Tactic.LinearCombination

noncomputable section

namespace Cert.CovPool

/-! ## Over the reals -/

/-- Both arrangements are c·Σ aₘbₘ − c·c·(Σ a)(Σ b). -/
theorem gram_centred_real {n : ℕ} (c s : ℝ) (hc : c * n = 1) (hs : s * s = c) (a b : Fin n → ℝ) :
    ∑ m, ((a m - (∑ k, a k) * c) * s) * ((b m - (∑ k, b k) * c) * s)
      = ∑ j, (∑ m, a m * (c * (if m = j then (1 : ℝ) else 0) - c * c * 1)) * b j := by
  obtain ⟨A, hA⟩ : ∃ A, (∑ k, a k) = A := ⟨_, rfl⟩
  obtain ⟨B, hB⟩ : ∃ B, (∑ k, b k) = B := ⟨_, rfl⟩
  obtain ⟨P, hP⟩ : ∃ P, (∑ k, a k * b k) = P := ⟨_, rfl⟩
  -- the inner sum on the right: the matrix row picks out c·aⱼ and subtracts c·c·Σ a
  have inner : ∀ j, ∑ m, a m * (c * (if m = j then (1 : ℝ) else 0) - c * c * 1) = c * a j - c * c * A := by
    intro j
    have h : ∀ m, a m * (c * (if m = j then (1 : ℝ) else 0) - c * c * 1)
        = (if m = j then c * a m else 0) - c * c * a m := by
      intro m; split_ifs <;> ring
    rw [Finset.sum_congr rfl (fun m _ => h m), Finset.sum_sub_distrib, Finset.sum_ite_eq',
      if_pos (Finset.mem_univ j), ← Finset.mul_sum, hA]
  have hL : ∀ m, ((a m - A * c) * s) * ((b m - B * c) * s)
      = s * s * (a m * b m) - s * s * (B * c) * a m - s * s * (A * c) * b m + s * s * (A * c) * (B * c) := by
    intro m; ring
  have hR : ∀ j, (c * a j - c * c * A) * b j = c * (a j * b j) - c * c * A * b j := by
    intro j; ring
  have lhs : ∑ m, ((a m - A * c) * s) * ((b m - B * c) * s)
      = ∑ m, (s * s * (a m * b m) - s * s * (B * c) * a m - s * s * (A * c) * b m + s * s * (A * c) * (B * c)) :=
    Finset.sum_congr rfl fun m _ => hL m
  have rhs : ∑ j, (∑ m, a m * (c * (if m = j then (1 : ℝ) else 0) - c * c * 1)) * b j
      = ∑ j, (c * (a j * b j) - c * c * A * b j) :=
    Finset.sum_congr rfl fun j _ => by rw [inner j, hR j]
  rw [hA, hB, lhs, rhs]
  simp only [Finset.sum_add_distrib, Finset.sum_sub_distrib, ← Finset.mul_sum, Finset.sum_const, Finset.card_univ,
    Fintype.card_fin, nsmul_eq_mul, hA, hB, hP]
  linear_combination (P - 2 * c * A * B + n * c ^ 2 * A * B) * hs + c ^ 2 * A * B * hc

/-! ## Over the extended reals -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert x t hx ih => rw [Finset.sum_insert hx, Finset.sum_insert hx, EReal.coe_add, ih]

/-- The Gram sum of two rows, each centred by its mean (its sum times c) and scaled by s. -/
def centredGram {n : ℕ} (c s : EReal) (a b : Fin n → EReal) : EReal :=
  ∑ m, ((a m - (∑ k, a k) * c) * s) * ((b m - (∑ k, b k) * c) * s)

/-- The row a taken through the matrix c·δ − (c·c)·one, then against the row b. -/
def hatGram {n : ℕ} (c one : EReal) (δ : Fin n → Fin n → EReal) (a b : Fin n → EReal) : EReal :=
  ∑ j, (∑ m, a m * (c * δ m j - (c * c) * one)) * b j

/-- For rows of reals the two arrangements agree on the extended reals, when δ is the unit matrix, c·n = 1 and s·s = c. -/
theorem centredGram_eq_hatGram {n : ℕ} (cr sr : ℝ) (hc : cr * n = 1) (hs : sr * sr = cr)
    (δ : Fin n → Fin n → EReal) (hδ : ∀ m j, δ m j = ((if m = j then (1 : ℝ) else 0 : ℝ) : EReal))
    (a b : Fin n → EReal) (ha : ∀ m, ∃ r : ℝ, a m = (r : EReal)) (hb : ∀ m, ∃ r : ℝ, b m = (r : EReal)) :
    centredGram (cr : EReal) (sr : EReal) a b = hatGram (cr : EReal) ((1 : ℝ) : EReal) δ a b := by
  choose ar har using ha
  choose br hbr using hb
  obtain rfl : a = fun m => (ar m : EReal) := funext har
  obtain rfl : b = fun m => (br m : EReal) := funext hbr
  unfold centredGram hatGram
  simp only [hδ, ← EReal.coe_mul, ← EReal.coe_sub, ← coe_sum]
  exact congrArg _ (gram_centred_real cr sr hc hs ar br)

end Cert.CovPool

end
-- ==== Proof.LibGram.lean ====
/-
  Rows stacked along the middle axis of a rank-3 array, and the batched product of such an array with itself, for any
  extents.

  * Two arrays of shapes [n, p, d] and [n, q, d] concatenated along the middle axis give an array of shape [n, r, d]
    (r = p + q).  Read at the coordinates (b, f, e) the result is the first array at (b, f, e) when f < p, and the second
    array at (b, f - p, e) otherwise.
  * The batched contraction "bfe,bge->bfg" of two arrays of shape [n, f, d] (batch axis 0, free axis 1, contracted
    axis 2) has, at the output coordinates (b, i, j), the operand coordinates (b, i, e) on the left and (b, j, e) on the
    right, where e runs over the contracted axis.  So on the extended reals the matrix unit's product into a zero
    accumulator and the host's general dot product are both, at (b, i, j), the sum over e of left(b, i, e) * right(b, j, e).
-/
import Idealize.ShloMosaic.PureOps.Ideal.Laws
import Idealize.ShloMosaic.Lib.ValueIdx
import Idealize.ShloMosaic.Lib.Pipeline.Value

noncomputable section

namespace Idealize.ShloMosaic.GramLib

open Idealize.ShloMosaic Idealize.ShloMosaic.ValueIdx

/-! ## Two arrays stacked along the middle axis -/

section Stack
variable {α : Type} {n p q r d : ℕ}

/-- Below the first extent the stacked array reads the first piece, at the same coordinates. -/
theorem concat_mid_left (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : f.val < p) :
    concatenate ⟨3, ![n, r, d]⟩ 1 [⟨⟨3, ![n, p, d]⟩, x⟩, ⟨⟨3, ![n, q, d]⟩, y⟩] h (ix3 b f e) = x (ix3 b ⟨f.val, hf⟩ e) :=
  concatenate_pair_apply_left (t := ⟨3, ![n, r, d]⟩) (s₁ := ⟨3, ![n, p, d]⟩) (s₂ := ⟨3, ![n, q, d]⟩) 1 x y h (ix3 b f e) rfl
    (ix3 b ⟨f.val, hf⟩ e) (fun ax => by
      match ax with
      | ⟨0, _⟩ => rfl
      | ⟨1, _⟩ => rfl
      | ⟨2, _⟩ => rfl)

/-- From the first extent on it reads the second piece, the middle coordinate the first extent less. -/
theorem concat_mid_right (x : (⟨3, ![n, p, d]⟩ : Shape).Idx → α) (y : (⟨3, ![n, q, d]⟩ : Shape).Idx → α)
    (h : Shape.Concatenates [(⟨3, ![n, p, d]⟩ : Shape), ⟨3, ![n, q, d]⟩] ⟨3, ![n, r, d]⟩ 1)
    (b : Fin n) (f : Fin r) (e : Fin d) (hf : p ≤ f.val) (hq : f.val - p < q) :
    concatenate ⟨3, ![n, r, d]⟩ 1 [⟨⟨3, ![n, p, d]⟩, x⟩, ⟨⟨3, ![n, q, d]⟩, y⟩] h (ix3 b f e) = y (ix3 b ⟨f.val - p, hq⟩ e) :=
  concatenate_pair_apply_right (t := ⟨3, ![n, r, d]⟩) (s₁ := ⟨3, ![n, p, d]⟩) (s₂ := ⟨3, ![n, q, d]⟩) 1 x y h (ix3 b f e) rfl rfl
    (ix3 b ⟨f.val - p, hq⟩ e) (fun ax hax => by
      match ax with
      | ⟨0, _⟩ => rfl
      | ⟨1, _⟩ => exact absurd rfl hax
      | ⟨2, _⟩ => rfl)
    (by show (f.val - p) + p = f.val; omega)

end Stack

/-! ## The batched product of an [n, f, d] array with another, contracted over the last axis -/

section Dims
variable {n f d : ℕ}

/-- The dimension numbers of "bfe,bge->bfg": contracted axes 2 and 2, free axes 1 and 1, batch axes 0 and 0. -/
def gramDims (n f d : ℕ)
    (wf : DotDims.WF (⟨3, ![n, f, d]⟩ : Shape) ⟨3, ![n, f, d]⟩ ⟨3, ![n, f, f]⟩ [2] [2] [1] [1] [0] [0]) :
    DotDims ⟨3, ![n, f, d]⟩ ⟨3, ![n, f, d]⟩ ⟨3, ![n, f, f]⟩ where
  lhsContracting := [2]
  rhsContracting := [2]
  lhsNonContracting := [1]
  rhsNonContracting := [1]
  lhsBatch := [0]
  rhsBatch := [0]
  wf := wf

variable (wf : DotDims.WF (⟨3, ![n, f, d]⟩ : Shape) ⟨3, ![n, f, d]⟩ ⟨3, ![n, f, f]⟩ [2] [2] [1] [1] [0] [0])

/-- The left operand's coordinates: the batch and the first free coordinate of the output, and the contraction's. -/
theorem lhs_batch (j : (⟨3, ![n, f, f]⟩ : Shape).Idx) (k : (gramDims n f d wf).contr.Idx) :
    ((gramDims n f d wf).lhsIdx j k 0 : ℕ) = j 0 := by
  simp [DotDims.lhsIdx, gramDims] <;> rfl
theorem lhs_free (j : (⟨3, ![n, f, f]⟩ : Shape).Idx) (k : (gramDims n f d wf).contr.Idx) :
    ((gramDims n f d wf).lhsIdx j k 1 : ℕ) = j 1 := by
  simp [DotDims.lhsIdx, gramDims] <;> rfl
/-- The right operand's: the batch and the SECOND free coordinate of the output, and the contraction's. -/
theorem rhs_batch (j : (⟨3, ![n, f, f]⟩ : Shape).Idx) (k : (gramDims n f d wf).contr.Idx) :
    ((gramDims n f d wf).rhsIdx j k 0 : ℕ) = j 0 := by
  simp [DotDims.rhsIdx, gramDims] <;> rfl
theorem rhs_free (j : (⟨3, ![n, f, f]⟩ : Shape).Idx) (k : (gramDims n f d wf).contr.Idx) :
    ((gramDims n f d wf).rhsIdx j k 1 : ℕ) = j 2 := by
  simp [DotDims.rhsIdx, gramDims] <;> rfl

theorem contr_rank : (gramDims n f d wf).contr.rank = 1 := (gramDims n f d wf).rank_contr

theorem contr_size : (gramDims n f d wf).contr.size ⟨0, by rw [contr_rank]; exact Nat.one_pos⟩ = d :=
  (gramDims n f d wf).size_contr 0 Nat.one_pos

/-- The contraction's indices are the coordinates of the last axis. -/
def contrFin : (gramDims n f d wf).contr.Idx ≃ Fin d :=
  contrEquiv1 (gramDims n f d wf) d (contr_rank wf) (contr_size wf)

theorem lhs_at (b : Fin n) (i j : Fin f) (e : Fin d) :
    (gramDims n f d wf).lhsIdx (ix3 b i j) ((contrFin wf).symm e) = ix3 b i e := by
  funext a
  apply Fin.ext
  match a with
  | ⟨0, _⟩ => exact lhs_batch wf (ix3 b i j) _
  | ⟨1, _⟩ => exact lhs_free wf (ix3 b i j) _
  | ⟨2, _⟩ =>
    exact ((gramDims n f d wf).lhsIdx_val_of_single (cl := 2) rfl (ix3 b i j) _).trans
      (contrEquiv1_symm_val (gramDims n f d wf) d (contr_rank wf) (contr_size wf) e)

theorem rhs_at (b : Fin n) (i j : Fin f) (e : Fin d) :
    (gramDims n f d wf).rhsIdx (ix3 b i j) ((contrFin wf).symm e) = ix3 b j e := by
  funext a
  apply Fin.ext
  match a with
  | ⟨0, _⟩ => exact rhs_batch wf (ix3 b i j) _
  | ⟨1, _⟩ => exact rhs_free wf (ix3 b i j) _
  | ⟨2, _⟩ =>
    exact ((gramDims n f d wf).rhsIdx_val_of_single (cr := 2) rfl (ix3 b i j) _).trans
      (contrEquiv1_symm_val (gramDims n f d wf) d (contr_rank wf) (contr_size wf) e)

/-- The contraction at the output coordinates (b, i, j), as a sum over the last axis. -/
theorem sum_contr {M : Type} [AddCommMonoid M] (F : (⟨3, ![n, f, d]⟩ : Shape).Idx → (⟨3, ![n, f, d]⟩ : Shape).Idx → M)
    (b : Fin n) (i j : Fin f) :
    (∑ k : (gramDims n f d wf).contr.Idx,
        F ((gramDims n f d wf).lhsIdx (ix3 b i j) k) ((gramDims n f d wf).rhsIdx (ix3 b i j) k))
      = ∑ e : Fin d, F (ix3 b i e) (ix3 b j e) := by
  rw [← Equiv.sum_comp (contrFin wf).symm]
  exact Finset.sum_congr rfl fun e _ => by rw [lhs_at, rhs_at]

variable {φ₁ φ₂ : FTy}

/-- The matrix unit's product into a zero accumulator, on the extended reals, at (b, i, j). -/
theorem matmul_zero_apply (prec : Option ContractPrecision) (lhs : FVec Ideal ⟨3, ![n, f, d]⟩ φ₁)
    (rhs : FVec Ideal ⟨3, ![n, f, d]⟩ φ₂) (b : Fin n) (i j : Fin f) :
    FloatOps.matmul (gramDims n f d wf) prec lhs rhs (constant ⟨3, ![n, f, f]⟩ .f32 0x00000000#32) (ix3 b i j)
      = ∑ e : Fin d, lhs (ix3 b i e) * rhs (ix3 b j e) :=
  (Ideal.matmul_constant_zero_apply (gramDims n f d wf) prec lhs rhs (ix3 b i j)).trans
    (sum_contr wf (fun u v => lhs u * rhs v) b i j)

/-- The host's general dot product, on the extended reals, at (b, i, j): the same sum. -/
theorem dotGeneral_apply (prec : Option ContractPrecision) (sched : HostSchedule) (lhs : FVec Ideal ⟨3, ![n, f, d]⟩ φ₁)
    (rhs : FVec Ideal ⟨3, ![n, f, d]⟩ φ₂) (b : Fin n) (i j : Fin f) :
    FloatOps.dotGeneral (gramDims n f d wf) prec sched lhs rhs (ix3 b i j)
      = ∑ e : Fin d, lhs (ix3 b i e) * rhs (ix3 b j e) :=
  (Ideal.dotGeneral_apply (gramDims n f d wf) prec sched lhs rhs (ix3 b i j)).trans
    (sum_contr wf (fun u v => lhs u * rhs v) b i j)

end Dims

end Idealize.ShloMosaic.GramLib

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.KernelBlock.lean ====
/-
  What the kernel's body computes from one block, read at an index. A block is 4 batches of 512 rows of 256 positions. The
  body sums every row over its positions, multiplies the sum by 1/256 to get the row's mean, subtracts the mean from
  every entry of the row, scales by 1/16, and multiplies the resulting 4 × 512 × 256 array with itself batch by batch,
  contracting the positions ("bdm,bem→bde"). So the entry (p, d, e) of the body's result is

      Σₘ ((v(p,d,m) − (Σₖ v(p,d,k))·(1/256))·(1/16)) · ((v(p,e,m) − (Σₖ v(p,e,k))·(1/256))·(1/16)),

  the first arrangement of the covariance law, of the rows d and e of batch p of the block. (On the extended reals the
  change of float format before the product is the identity.)
-/
import proofs.«158008_j5609227288680_2_alg».proof.Proof.Gen.KernelIdeal.Skeleton
import proofs.«158008_j5609227288680_2_alg».proof.Proof.CovLaw
import proofs.«158008_j5609227288680_2_alg».proof.Proof.LibGram
import proofs.«158008_j5609227288680_2_alg».proof.Proof.LibKeepdims
import Idealize.ShloMosaic.Lib.Pipeline.Value
import Idealize.ShloMosaic.Lib.ValueIdx

noncomputable section

namespace Cert.CovPool

open Idealize.ShloMosaic Idealize.ShloMosaic.ValueIdx Cert.KernelIdeal Cert.KernelIdeal.Gen

/-! ## The pieces of the body -/

/-- Every row of the block summed over its positions. -/
def rowSums (v : FVec Ideal S4x512x256 .f32) : FVec Ideal S4x512 .f32 :=
  multiReduction .add [2] S4x512 (shapeCast S4x512x256 v shapeCasts_S4x512x256_S4x512x256) 0x00000000#32
    reduces_S4x512x256_S4x512 (.inl rfl) rfl

/-- Every row's mean, kept as a column: the row's sum times 1/256. -/
def rowMeans (v : FVec Ideal S4x512x256 .f32) : FVec Ideal S4x512x1 .f32 :=
  mulf (shapeCast S4x512x1 (rowSums v) shapeCasts_S4x512_S4x512x1) (broadcast S4x512x1 (Scalar.ofBits .f32 0x3B800000#32))

/-- The block with every row's mean subtracted, scaled by 1/16, in the product's input format. -/
def scaledBlock (v : FVec Ideal S4x512x256 .f32) : FVec Ideal S4x512x256 .bf16 :=
  truncf .bf16
    (mulf (subf (shapeCast S4x512x256 v shapeCasts_S4x512x256_S4x512x256)
        (broadcastTo S4x512x256 (rowMeans v) broadcasts_S4x512x1_S4x512x256))
      (broadcast S4x512x256 (Scalar.ofBits .f32 0x3D800000#32)))
    bitsLt_bf16_f32

/-- The body's result is the batched product of the scaled block with itself into a zero accumulator. -/
theorem pay_eq (v : Vec Ideal S4x512x256 .f32) :
    k0_pay1 (F := Ideal) v
      = matmul dot_S4x512x256_S4x512x256_S4x512x512_2_2_1_1_0_0 none (scaledBlock v) (scaledBlock v)
          (constant S4x512x512 .f32 0x00000000#32) := rfl

/-! ## Each piece at an index -/

/-- The sum of row (p, q). -/
theorem rowSums_apply (v : FVec Ideal S4x512x256 .f32) (p : Fin 4) (q : Fin 512) :
    rowSums v (ix2 p q) = ∑ k : Fin 256, v (ix3 p q k) := by
  unfold rowSums
  refine (Keepdims.multiReduction_add_last (a := 4) (b := 512) (c := 256)
    (shapeCast S4x512x256 v shapeCasts_S4x512x256_S4x512x256) 0x00000000#32 reduces_S4x512x256_S4x512 (.inl rfl) rfl p q).trans ?_
  rw [shapeCast_self]

/-- The mean of row (p, q), read anywhere along the kept axis. -/
theorem rowMeans_apply (v : FVec Ideal S4x512x256 .f32) (p : Fin 4) (q : Fin 512) (u : Fin 1) :
    rowMeans v (ix3 p q u) = (∑ k : Fin 256, v (ix3 p q k)) * Ideal.ofBits .f32 0x3B800000#32 := by
  unfold rowMeans
  have hs := Keepdims.shapeCast_ab_ab1_apply (a := 4) (b := 512) (rowSums v) shapeCasts_S4x512_S4x512x1 p q u
  show shapeCast S4x512x1 (rowSums v) shapeCasts_S4x512_S4x512x1 (ix3 p q u) * Ideal.ofBits .f32 0x3B800000#32 = _
  rw [hs, rowSums_apply]

/-- The scaled block at (p, q, m): the entry less its row's mean, times 1/16. -/
theorem scaledBlock_apply (v : FVec Ideal S4x512x256 .f32) (p : Fin 4) (q : Fin 512) (m : Fin 256) :
    scaledBlock v (ix3 p q m)
      = (v (ix3 p q m) - (∑ k : Fin 256, v (ix3 p q k)) * Ideal.ofBits .f32 0x3B800000#32)
          * Ideal.ofBits .f32 0x3D800000#32 := by
  unfold scaledBlock
  have hb := Keepdims.broadcastTo_ab1_abc_apply (a := 4) (b := 512) (c := 256) (rowMeans v)
    broadcasts_S4x512x1_S4x512x256 p q m
  have hv := congrFun (shapeCast_self v shapeCasts_S4x512x256_S4x512x256) (ix3 p q m)
  show (shapeCast S4x512x256 v shapeCasts_S4x512x256_S4x512x256 (ix3 p q m)
      - broadcastTo S4x512x256 (rowMeans v) broadcasts_S4x512x1_S4x512x256 (ix3 p q m))
      * Ideal.ofBits .f32 0x3D800000#32 = _
  rw [hv, hb, rowMeans_apply]

/-! ## The body's result at an index -/

/-- The body's result at (p, d, e): the rows d and e of batch p of the block, in the first arrangement of the covariance
    law. -/
theorem pay_apply (v : Vec Ideal S4x512x256 .f32) (p : Fin 4) (d e : Fin 512) :
    k0_pay1 (F := Ideal) v (ix3 p d e)
      = centredGram (Ideal.ofBits .f32 0x3B800000#32) (Ideal.ofBits .f32 0x3D800000#32)
          (fun m => v (ix3 p d m)) (fun m => v (ix3 p e m)) := by
  rw [pay_eq]
  refine (GramLib.matmul_zero_apply (n := 4) (f := 512) (d := 256)
    dot_S4x512x256_S4x512x256_S4x512x512_2_2_1_1_0_0_wf none (scaledBlock v) (scaledBlock v) p d e).trans ?_
  unfold centredGram
  exact Finset.sum_congr rfl fun m _ => by rw [scaledBlock_apply, scaledBlock_apply]

end Cert.CovPool

end
-- ==== Proof.RefValue.lean ====
/-
  The reference's result, read at an index. With xf the argument read as 64 batches of 512 rows of 256 positions, the
  reference forms the 256 × 256 matrix (1/256)·δ − (1/256)·(1/256)·1 — δ the unit matrix, which it builds by comparing a row
  counter with a column counter —, takes each row of xf through that matrix, and contracts the result with the rows of xf
  again. So the entry (b, d, e) of its result is

      Σⱼ (Σₘ xf(b,d,m) · ((1/256)·δₘⱼ − (1/256)·(1/256)·1)) · xf(b,e,j),

  the second arrangement of the covariance law, of the rows d and e of batch b.
-/
import proofs.«158008_j5609227288680_2_alg».proof.Proof.Gen.ReferenceIdeal.Read
import proofs.«158008_j5609227288680_2_alg».proof.Proof.CovLaw
import Idealize.ShloMosaic.Lib.Affine
import Idealize.ShloMosaic.Lib.ValueIdx

noncomputable section

namespace Cert.CovPool

open Idealize.ShloMosaic Idealize.ShloMosaic.ValueIdx Cert.ReferenceIdeal Cert.ReferenceIdeal.Read

/-! ## The unit matrix as the reference builds it -/

/-- Entry (m, j) of the unit matrix: the row counter (plus a zero offset) compared with the column counter, the one-bit
    answer read as a float. -/
def unitEntry (m j : Fin 256) : EReal :=
  FloatOps.uitofp (F := Ideal) .f32
    (IntOp.cmpi .eq (IntOp.addi (BitVec.ofNat 32 m.val) 0#32) (BitVec.ofNat 32 j.val))

/-- Two counters below 256 are equal as 32-bit words only when they are equal. -/
theorem word_inj (m j : Fin 256) (h : BitVec.ofNat 32 m.val = BitVec.ofNat 32 j.val) : m = j := by
  have := congrArg BitVec.toNat h
  simp only [BitVec.toNat_ofNat] at this
  apply Fin.ext
  have hm := m.isLt
  have hj := j.isLt
  omega

/-- It is 1 on the diagonal and 0 off it. -/
theorem unitEntry_eq (m j : Fin 256) : unitEntry m j = ((if m = j then (1 : ℝ) else 0 : ℝ) : EReal) := by
  unfold unitEntry
  have hadd : IntOp.addi (BitVec.ofNat 32 m.val) 0#32 = BitVec.ofNat 32 m.val := by
    simp [IntOp.addi]
  rw [hadd]
  by_cases h : m = j
  · subst h
    rw [if_pos rfl, IntOp.cmpi_eq.mpr rfl]
    show (((1#1 : BitVec 1).toNat : ℝ) : EReal) = _
    simp
  · rw [if_neg h, eq_zero_of_ne_one fun hh => h (word_inj m j (IntOp.cmpi_eq.mp hh))]
    show (((0#1 : BitVec 1).toNat : ℝ) : EReal) = _
    simp

/-! ## The matrix, and the two contractions -/

/-- Entry (m, j) of the reference's matrix: (1/256)·δₘⱼ − ((1/256)·(1/256))·1, the constants as their patterns. -/
theorem hat_apply (m j : Fin 256) :
    val_main_v13 (F := Ideal) (ix2 m j)
      = Ideal.ofBits .f32 0x3B800000#32 * unitEntry m j
        - (Ideal.ofBits .f32 0x3B800000#32 * Ideal.ofBits .f32 0x3B800000#32) * Ideal.ofBits .f32 0x3F800000#32 := by
  rw [val_main_v13_apply, val_main_v8_apply, val_main_v12_apply, val_main_v7_apply, val_main_v11_apply,
    val_main_v10_apply, val_main_v9_apply, val_main_cst_apply, val_main_cst_0_apply, val_main_cst_1_apply,
    val_main_cst_2_apply, val_main_v6_apply, val_main_v5_apply, val_main_v4_apply, val_main_v3_apply,
    val_main_v1_apply, val_main_v2_apply, val_main_c_apply]
  rfl

/-- The reference's result at (b, d, e): the rows d and e of batch b of the reshaped argument, in the second arrangement
    of the covariance law. -/
theorem ref_apply (x0 : (⟨S64x512x16x16, .f32⟩ : BufTy).Contents (Elt Ideal)) (b : Fin 64) (d e : Fin 512) :
    val_main_v15 (F := Ideal) x0 (ix3 b d e)
      = hatGram (Ideal.ofBits .f32 0x3B800000#32) (Ideal.ofBits .f32 0x3F800000#32) unitEntry
          (fun m => val_main_v0 (F := Ideal) x0 (ix3 b d m)) (fun m => val_main_v0 (F := Ideal) x0 (ix3 b e m)) := by
  rw [val_main_v15_apply]
  unfold hatGram
  refine Finset.sum_congr rfl fun j _ => ?_
  have l15 : lidx_main_v15 (ix3 b d e) j = ix3 b d j := funext fun a => Fin.ext (by
    match a with
    | ⟨0, _⟩ => rfl
    | ⟨1, _⟩ => rfl
    | ⟨2, _⟩ => rfl)
  have r15 : ridx_main_v15 (ix3 b d e) j = ix3 b e j := funext fun a => Fin.ext (by
    match a with
    | ⟨0, _⟩ => rfl
    | ⟨1, _⟩ => rfl
    | ⟨2, _⟩ => rfl)
  rw [l15, r15, val_main_v14_apply]
  refine congrArg (· * val_main_v0 (F := Ideal) x0 (ix3 b e j)) ?_
  refine Finset.sum_congr rfl fun m _ => ?_
  have l14 : lidx_main_v14 (ix3 b d j) m = ix3 b d m := funext fun a => Fin.ext (by
    match a with
    | ⟨0, _⟩ => rfl
    | ⟨1, _⟩ => rfl
    | ⟨2, _⟩ => rfl)
  have r14 : ridx_main_v14 (ix3 b d j) m = ix2 m j := funext fun a => Fin.ext (by
    match a with
    | ⟨0, _⟩ => rfl
    | ⟨1, _⟩ => rfl)
  rw [l14, r14, hat_apply]

end Cert.CovPool

end
-- ==== Proof.KernelArray.lean ====
/-
  The kernel's result array after the run. The grid has 16 points; point t reads batches 4t … 4t+3 of the reshaped
  argument (4 batches of 512 rows of 256 positions) and writes batches 4t … 4t+3 of the result (4 × 512 × 512). Batch p of
  the block at point t is batch 4t + p of the array, on both sides, and the other two coordinates are kept. So entry
  (p, d, e) of what point t writes back is the covariance of rows d and e of batch 4t + p in the first arrangement, which for
  real data is the second arrangement — the entry (4t + p, d, e) of the reference's result. The 16 blocks tile the result
  array (batch b lies in the block of point b / 4), so the whole array ends equal to the reference's result.
-/
import proofs.«158008_j5609227288680_2_alg».proof.Proof.Gen.KernelIdeal.Value
import proofs.«158008_j5609227288680_2_alg».proof.Proof.Gen.ReferenceIdeal.Read
import proofs.«158008_j5609227288680_2_alg».proof.Proof.KernelBlock
import proofs.«158008_j5609227288680_2_alg».proof.Proof.RefValue
import proofs.«158008_j5609227288680_2_alg».proof.Proof.Consts
import Idealize.ShloMosaic.Lib.IdealHost
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.CovPool

open Cert.KernelIdeal Cert.KernelIdeal.Gen Cert.KernelIdeal.Value

variable (m : (ℓ : Loc nD τ sig) → Buf (Elt Ideal) ℓ) (ρ : Dev nD → PrngReg)

/-! ## The reshaped argument, as the region finds it -/

/-- The one host operation before the region reshapes the argument to 64 × 512 × 256: the array the input window
    stages is the reference's reshaped argument. -/
theorem V_reshaped (c : Dev nD) :
    (V m c main_v0 : S64x512x256.Idx → EReal)
      = Cert.ReferenceIdeal.Read.val_main_v0 (F := Ideal) (m ((c : Thread nD τ).loc main_arg0)) := by
  have e : (V m c main_v0 : S64x512x256.Idx → EReal)
      = shapeCast S64x512x256 (m ((c : Thread nD τ).loc main_arg0)) shapeCasts_S64x512x16x16_S64x512x256 := by
    dsimp only [Gen.V, Gen.hostOps0]; after_results; rfl
  exact e

/-- Every entry of the reshaped argument is an entry of the argument, so it is a real when they all are. -/
theorem reshaped_real (x0 : (⟨S64x512x16x16, .f32⟩ : BufTy).Contents (Elt Ideal))
    (hreal : ∀ j, ∃ r : ℝ, x0 j = (r : EReal)) (i : S64x512x256.Idx) :
    ∃ r : ℝ, Cert.ReferenceIdeal.Read.val_main_v0 (F := Ideal) x0 i = (r : EReal) := by
  rw [Cert.ReferenceIdeal.Read.val_main_v0_apply]
  exact hreal _

/-! ## Where a block sits in its array -/

/-- The block index of both windows at point t is (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Batch p of the block at point t is batch 4t + p of the array. -/
def batchAt (t : Fin cfg0.N) (p : Fin 4) : Fin 64 :=
  ⟨4 * t.val + p.val, by have hN : cfg0.N = 16 := N_0; have := t.isLt; have := p.isLt; omega⟩

/-- The input block at point t, at (p, q, k): the staged array at (4t + p, q, k). -/
theorem iblk_apply (c : Dev nD) (t : Fin cfg0.N) (p : Fin 4) (q : Fin 512) (k : Fin 256) :
    (iblk m c 0 t : Vec Ideal S4x512x256 .f32) (ix3 p q k)
      = (V m c main_v0 : S64x512x256.Idx → EReal) (ix3 (batchAt t p) q k) := by
  obtain ⟨e0, e1, e2, -, -, -⟩ := idx_facts t
  unfold iblk
  rw [View.read_apply]
  show (V m c main_v0 : S64x512x256.Idx → EReal) _ = (V m c main_v0 : S64x512x256.Idx → EReal) _
  refine congrArg (V m c main_v0 : S64x512x256.Idx → EReal) (funext fun a => Fin.ext ?_)
  match a with
  | ⟨0, _⟩ => show win0_0.index t 0 * 4 + 1 * p.val = 4 * t.val + p.val; rw [e0]; omega
  | ⟨1, _⟩ => show win0_0.index t 1 * 512 + 1 * q.val = q.val; rw [e1]; omega
  | ⟨2, _⟩ => show win0_0.index t 2 * 256 + 1 * k.val = k.val; rw [e2]; omega

/-! ## One entry of what a point writes back -/

/-- For real data, the body's result on a block whose batch p is batch B of the reshaped argument is, at (p, d, e), the
    reference's result at (B, d, e): the two arrangements of the covariance law, with c = 1/256 (c·256 = 1) and
    s = 1/16 (s·s = c). -/
theorem entry_eq (x0 : (⟨S64x512x16x16, .f32⟩ : BufTy).Contents (Elt Ideal))
    (hreal : ∀ j, ∃ r : ℝ, x0 j = (r : EReal)) (v : Vec Ideal S4x512x256 .f32) (B : Fin 64) (p : Fin 4)
    (hv : ∀ (q : Fin 512) (k : Fin 256),
      v (ix3 p q k) = Cert.ReferenceIdeal.Read.val_main_v0 (F := Ideal) x0 (ix3 B q k))
    (d e : Fin 512) :
    k0_pay1 (F := Ideal) v (ix3 p d e) = Cert.ReferenceIdeal.Read.val_main_v15 (F := Ideal) x0 (ix3 B d e) := by
  rw [pay_apply, ref_apply]
  have hd : (fun k => v (ix3 p d k)) = fun k => Cert.ReferenceIdeal.Read.val_main_v0 (F := Ideal) x0 (ix3 B d k) :=
    funext fun k => hv d k
  have he : (fun k => v (ix3 p e k)) = fun k => Cert.ReferenceIdeal.Read.val_main_v0 (F := Ideal) x0 (ix3 B e k) :=
    funext fun k => hv e k
  rw [hd, he, ofBits_inv256, ofBits_inv16,
    show Ideal.ofBits .f32 0x3F800000#32 = ((1 : ℝ) : EReal) from Ideal.ofBits_one_f32.trans EReal.coe_one.symm]
  exact centredGram_eq_hatGram (1 / 256) (1 / 16) (by norm_num) (by norm_num) unitEntry unitEntry_eq _ _
    (fun k => reshaped_real x0 hreal _) (fun k => reshaped_real x0 hreal _)

/-! ## What point t writes back, the cover, and the final array -/

theorem hz : (![0, 0, 0] : Fin 3 → Nat) = fun _ => 0 := funext fun a => by fin_cases a <;> rfl

/-- What point t writes back is block t of the reference's result of the kernel's own argument. -/
theorem flushed_eq (hreal : ∀ (c : Dev nD) j, ∃ r : ℝ, m ((c : Thread nD τ).loc main_arg0) j = (r : EReal))
    (c : Dev nD) (t : Fin cfg0.N) :
    (dats m 0 c).flushed 1 t = ((cfg0.win 1).blk t).view.read (Elt Ideal)
      (Cert.ReferenceIdeal.Read.val_main_v15 (F := Ideal) (m ((c : Thread nD τ).loc main_arg0))) := by
  rw [Value.flushed1]
  unfold out0_1
  rw [View.canon_unit_zero hz]
  simp only [View.ld_unit_zero (S := S4x512x256) hz]
  obtain ⟨-, -, -, e0, e1, e2⟩ := idx_facts t
  funext y
  obtain ⟨p, d, e, rfl⟩ : ∃ (p : Fin 4) (d e : Fin 512), y = ix3 p d e := ⟨y 0, y 1, y 2, eq_ix3 y⟩
  show k0_pay1 (F := Ideal) (iblk m c 0 t) (ix3 p d e)
    = Cert.ReferenceIdeal.Read.val_main_v15 (F := Ideal) (m ((c : Thread nD τ).loc main_arg0))
        (((cfg0.win 1).blk t).view.emb (ix3 p d e))
  have hemb : ((cfg0.win 1).blk t).view.emb (ix3 p d e) = ix3 (batchAt t p) d e := funext fun a => Fin.ext (by
    match a with
    | ⟨0, _⟩ => show win0_1.index t 0 * 4 + 1 * p.val = 4 * t.val + p.val; rw [e0]; omega
    | ⟨1, _⟩ => show win0_1.index t 1 * 512 + 1 * d.val = d.val; rw [e1]; omega
    | ⟨2, _⟩ => show win0_1.index t 2 * 512 + 1 * e.val = e.val; rw [e2]; omega)
  rw [hemb]
  exact entry_eq (m ((c : Thread nD τ).loc main_arg0)) (hreal c) (iblk m c 0 t) (batchAt t p) p
    (fun q k => (iblk_apply m c t p q k).trans (congrFun (V_reshaped m c) _)) d e

/-- Every index of the result array lies in some point's block: batch b in the block of point b / 4. -/
theorem cover (i : S64x512x512.Idx) :
    ∃ t : Fin cfg0.N, (cfg0.win 1).flush t = true ∧ i ∈ ((cfg0.win 1).blk t).view.set := by
  have hN : cfg0.N = 16 := N_0
  have h0 : (i 0).val < 64 := (i 0).isLt
  have h1 : (i 1).val < 512 := (i 1).isLt
  have h2 : (i 2).val < 512 := (i 2).isLt
  obtain ⟨t, ht⟩ : ∃ t : Fin cfg0.N, t.val = (i 0).val / 4 := ⟨⟨(i 0).val / 4, by omega⟩, rfl⟩
  obtain ⟨-, -, -, e0, e1, e2⟩ := idx_facts t
  refine ⟨t, flush0_1 t, ?_⟩
  show i ∈ ((View.whole main_v1).slice (win0_1.rect t)).set
  rw [View.set_slice_whole, Rect.mem_set_unit]
  intro a
  match a with
  | ⟨0, _⟩ =>
    show win0_1.index t 0 * 4 ≤ (i 0).val ∧ (i 0).val < win0_1.index t 0 * 4 + 4
    rw [e0, ht]; omega
  | ⟨1, _⟩ =>
    show win0_1.index t 1 * 512 ≤ (i 1).val ∧ (i 1).val < win0_1.index t 1 * 512 + 512
    rw [e1]; omega
  | ⟨2, _⟩ =>
    show win0_1.index t 2 * 512 ≤ (i 2).val ∧ (i 2).val < win0_1.index t 2 * 512 + 512
    rw [e2]; omega

/-- So, for real data, the result array ends equal to the reference's result of the kernel's argument. -/
theorem final (hreal : ∀ (c : Dev nD) j, ∃ r : ℝ, m ((c : Thread nD τ).loc main_arg0) j = (r : EReal)) (c : Dev nD) :
    (dats m 0 c).arrAt 1 cfg0.N
      = Cert.ReferenceIdeal.Read.val_main_v15 (F := Ideal) (m ((c : Thread nD τ).loc main_arg0)) :=
  (dats m 0 c).arrAt_eq_of_cover 1 _ (fun t _ => flushed_eq m hreal c t) cover

/-- The kernel's run, read: the result array at the reference's result of the argument, the argument unchanged. -/
theorem run (hreal : ∀ (c : Dev nD) j, ∃ r : ℝ, m ((c : Thread nD τ).loc main_arg0) j = (r : EReal)) :
    θ_run defs (onTc (τ := τ) (main (F := Ideal))) ⟨m, fun _ => 0, ρ⟩ fun r => ∀ c : Dev nD,
      r.2.mem ((c : Thread nD τ).loc main_v1)
        = Cert.ReferenceIdeal.Read.val_main_v15 (F := Ideal) (m ((c : Thread nD τ).loc main_arg0))
      ∧ r.2.mem ((c : Thread nD τ).loc main_arg0) = m ((c : Thread nD τ).loc main_arg0) :=
  (θ_run defs _ _).mono (fun r h c => ⟨(h c).1.trans (final m hreal c), (h c).2⟩) (Value.run_blocks m ρ)

end Cert.CovPool

end
-- ==== Proof.lean ====
/-
  Global covariance pooling. The argument x has 64 batches of 512 feature rows over 16 × 16 = 256 positions. Both programs
  first read it as xf : 64 × 512 × 256.

  The kernel, on 4 batches at a time, subtracts from every row its mean (the row's sum times 1/256), scales by 1/16 and
  multiplies the result with itself batch by batch:

      y(b,d,e) = Σₘ ((xf(b,d,m) − μ(b,d))·(1/16)) · ((xf(b,e,m) − μ(b,e))·(1/16)),    μ(b,d) = (Σₘ xf(b,d,m))·(1/256).

  The reference takes every row of xf through the 256 × 256 matrix (1/256)·δ − (1/256)·(1/256)·1 and contracts with the
  rows of xf again:

      y(b,d,e) = Σⱼ (Σₘ xf(b,d,m) · ((1/256)·δₘⱼ − (1/256)·(1/256))) · xf(b,e,j).

  Over the reals both are (1/256)·Σₘ xf(b,d,m)·xf(b,e,m) − (1/256)²·(Σₘ xf(b,d,m))·(Σₘ xf(b,e,m)): in the first the two cross
  terms and the constant term collapse because 256·(1/256) = 1 and (1/16)² = 1/256 (CovLaw). The law distributes products
  over sums and cancels, which fails at infinities, so the precondition is used: every entry of x is a real (Finite).

  The pieces: the reference's result at an index (RefValue, over the generated reading of its operations); the kernel
  body's result on one block at an index (KernelBlock, with the batched product and the keepdims steps read by the two
  general lemma files); the 16 blocks placed in the result array, each entry then equal to the reference's (KernelArray).
  The three frames are the generated ones; the kernel's idealization rewrote nothing, so there is nothing to preserve.
-/
import proofs.«158008_j5609227288680_2_alg».proof.Defs
import proofs.«158008_j5609227288680_2_alg».proof.Proof.Gen.Kernel
import proofs.«158008_j5609227288680_2_alg».proof.Proof.Gen.Kernel.Skeleton
import proofs.«158008_j5609227288680_2_alg».proof.Proof.Gen.Kernel.Launch
import proofs.«158008_j5609227288680_2_alg».proof.Proof.Gen.Kernel.Points
import proofs.«158008_j5609227288680_2_alg».proof.Proof.Gen.Kernel.Frame
import proofs.«158008_j5609227288680_2_alg».proof.Proof.Gen.KernelIdeal
import proofs.«158008_j5609227288680_2_alg».proof.Proof.Gen.KernelIdeal.Skeleton
import proofs.«158008_j5609227288680_2_alg».proof.Proof.Gen.KernelIdeal.Launch
import proofs.«158008_j5609227288680_2_alg».proof.Proof.Gen.KernelIdeal.Points
import proofs.«158008_j5609227288680_2_alg».proof.Proof.Gen.KernelIdeal.Frame
import proofs.«158008_j5609227288680_2_alg».proof.Proof.Gen.ReferenceIdeal
import proofs.«158008_j5609227288680_2_alg».proof.Proof.Gen.Pre_finite_inputs
import proofs.«158008_j5609227288680_2_alg».proof.Proof.Gen.KernelIdeal.Value
import proofs.«158008_j5609227288680_2_alg».proof.Proof.Gen.ReferenceIdeal.Run
import proofs.«158008_j5609227288680_2_alg».proof.Proof.Gen.ReferenceIdeal.Read
import proofs.«158008_j5609227288680_2_alg».proof.Proof.Finite
import proofs.«158008_j5609227288680_2_alg».proof.Proof.KernelArray
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, both programs end with the same result: under the precondition every entry
    of the argument is a real, so the kernel's result array is the reference's result of that argument, and the
    reference's own run ends there too. -/
theorem algebraic : Cert.algebraic_KernelIdeal_ReferenceIdeal := by
  intro m ρ m' ρ' hpre hagree
  have hreal : ∀ (c : Dev Cert.KernelIdeal.nD) j, ∃ r : ℝ,
      m ((c.tc : Thread Cert.KernelIdeal.nD Cert.KernelIdeal.τ).loc Cert.KernelIdeal.main_arg0) j = (r : EReal) :=
    fun c j => Cert.CovPool.real_of_pre _ (hpre c) j
  refine ⟨fun c => Cert.ReferenceIdeal.Read.val_main_v15 (F := Ideal)
      (m ((c.tc : Thread Cert.KernelIdeal.nD Cert.KernelIdeal.τ).loc Cert.KernelIdeal.main_arg0)),
    Cert.CovPool.run m ρ hreal, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.Read.val_main_v15_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
